-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x512 : Shape := ⟨3, ![512, 128, 512]⟩
abbrev S_ : Shape := ⟨0, ![]⟩

class Facts : Prop where
  bcast_S_S512x128x512 : S_.BroadcastsInDim S512x128x512 (![] : Fin 0 → Fin S512x128x512.rank)
  reducesTo_S512x128x512_S_d0_1_2 : S512x128x512.ReducesTo [0, 1, 2] S_
  h_S_ : 0 < S_.numel

variable [Facts]

def fn {F : FTy → Type} [FloatOps F] (main_arg0 : FVec F S512x128x512 .f32) : IVec S_ 1 :=
  let main_v0 : FVec F S512x128x512 .f32 := Host.absf main_arg0
  let main_cst : FVec F S_ .f32 := constant S_ .f32 0x7F800000#32
  let main_v1 : FVec F S512x128x512 .f32 := broadcastInDim S512x128x512 ![] bcast_S_S512x128x512 main_cst
  let main_v2 : IVec S512x128x512 1 := cmpf .olt main_v0 main_v1
  let main_c : IVec S_ 1 := constantI S_ 1 1#1
  let main_v3 : IVec S_ 1 := (fun x v => Host.reduce IntOp.andi x v reducesTo_S512x128x512_S_d0_1_2 h_S_) main_v2 main_c
  main_v3
-- ==== Kernel.lean ====
abbrev S512x128x512 : Shape := ⟨3, ![512, 128, 512]⟩
abbrev S512x128x128 : Shape := ⟨3, ![512, 128, 128]⟩
abbrev S32x128x512 : Shape := ⟨3, ![32, 128, 512]⟩
abbrev S32x128x128 : Shape := ⟨3, ![32, 128, 128]⟩
abbrev S16x128x512 : Shape := ⟨3, ![16, 128, 512]⟩
abbrev S16x128x128 : Shape := ⟨3, ![16, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S512x128x512, .f32⟩
  | .hbm, ⟨1, _⟩ => ⟨S512x128x128, .f32⟩
  | .local _ .vmem, ⟨0, _⟩ => ⟨S32x128x512, .f32⟩
  | .local _ .vmem, ⟨1, _⟩ => ⟨S32x128x512, .f32⟩
  | .local _ .vmem, ⟨2, _⟩ => ⟨S32x128x128, .f32⟩
  | .local _ .vmem, ⟨3, _⟩ => ⟨S32x128x128, .f32⟩
  | _, _ => ⟨S512x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let c16_i32 : BitVec 32 := 16#32
  let v1 : BitVec 32 := Scalar.muli arg3 c16_i32
  let v2 : Index := Scalar.indexCast v1
  let c0 : Index := 0#32
  let c0_1 : Index := 0#32
  ![v2.toNat, 0, 0]
def k0_off2 (k0_t1 : Fin k0_t1_loop.trips) : Fin 3 → Nat :=
  let c0_i32 : BitVec 32 := 0#32
  let c1_i32 : BitVec 32 := 1#32
  let arg3 : BitVec 32 := Scf.iv c0_i32 c1_i32 k0_t1
  let c16_i32 : BitVec 32 := 16#32
  let v1 : BitVec 32 := Scalar.muli arg3 c16_i32
  let v9 : Index := Scalar.indexCast v1
  let c0_3 : Index := 0#32
  let c0_4 : Index := 0#32
  ![v9.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S16x128x512 : 0 < S16x128x512.numel
  bitsLt_bf16_f32 : FTy.bits .bf16 < FTy.bits .f32
  h_S16x128x128 : 0 < S16x128x128.numel
  dot_S16x128x512_S16x128x512_S16x128x128_2_2_1_1_0_0_wf : DotDims.WF S16x128x512 S16x128x512 S16x128x128 [2] [2] [1] [1] [0] [0]
  hrank0 : 0 < grid0.rank
  k0_t1_ok : k0_t1_loop.OK
  k0_off1_inb : ∀ k0_t1 : Fin k0_t1_loop.trips, ∀ a, (k0_off1 k0_t1) a + S16x128x512.size a ≤ S32x128x512.size a
  k0_off2_inb : ∀ k0_t1 : Fin k0_t1_loop.trips, ∀ a, (k0_off2 k0_t1) a + S16x128x128.size a ≤ S32x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x512.size a ≤ S512x128x512.size a
  hwx0_0 : ∀ i : grid0.Coords, EltTy.bits .f32 = 32 ∨ (Rect.block (s := S512x128x512) S32x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S512x128x128.size a
  hwx0_1 : ∀ i : grid0.Coords, EltTy.bits .f32 = 32 ∨ (Rect.block (s := S512x128x128) S32x128x128.size (cc0_transform_1 i) (hinb0_1 i)).WholeWords (EltTy.packing .f32)

variable [Facts₀]

def dot_S16x128x512_S16x128x512_S16x128x128_2_2_1_1_0_0 : DotDims S16x128x512 S16x128x512 S16x128x128 where
  lhsContracting := [2]
  rhsContracting := [2]
  lhsNonContracting := [1]
  rhsNonContracting := [1]
  lhsBatch := [0]
  rhsBatch := [0]
  wf := dot_S16x128x512_S16x128x512_S16x128x128_2_2_1_1_0_0_wf

abbrev win0_0 : Pipeline.Window sig grid0 :=
  Pipeline.Window.ofSpec (Memref.whole main_arg0) S32x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x128x512 : Shape := ⟨3, ![512, 128, 512]⟩
abbrev S512x128x128 : Shape := ⟨3, ![512, 128, 128]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x128x512, .f32⟩
  | .hbm, ⟨1, _⟩ => ⟨S512x128x128, .f32⟩
  | .hbm, ⟨2, _⟩ => ⟨S_, .f32⟩
  | .hbm, ⟨3, _⟩ => ⟨S512x128x128, .f32⟩
  | .hbm, ⟨4, _⟩ => ⟨S512x128x128, .f32⟩
  | .hbm, ⟨5, _⟩ => ⟨S512x128x128, .f32⟩
  | _, _ => ⟨S512x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S_S512x128x128 : S_.BroadcastsInDim S512x128x128 (![] : Fin 0 → Fin S512x128x128.rank)
  dot_S512x128x512_S512x128x512_S512x128x128_2_2_1_1_0_0_wf : DotDims.WF S512x128x512 S512x128x512 S512x128x128 [2] [2] [1] [1] [0] [0]

variable [Facts₀]

def dot_S512x128x512_S512x128x512_S512x128x128_2_2_1_1_0_0 : DotDims S512x128x512 S512x128x512 S512x128x128 where
  lhsContracting := [2]
  rhsContracting := [2]
  lhsNonContracting := [1]
  rhsNonContracting := [1]
  lhsBatch := [0]
  rhsBatch := [0]
  wf := dot_S512x128x512_S512x128x512_S512x128x128_2_2_1_1_0_0_wf

class Facts : Prop extends Facts₀ where

variable [Facts]
-- ==== Proof.GramSpec.lean ====
/-
  The function both programs compute, stated once over abstract extents.

  For an array `x` of `N` samples, each a `C × M` matrix, the Gram matrix of sample `n` has entry
  `(c, k)` equal to the inner product of rows `c` and `k` of that sample, `∑ m, x[n,c,m] · x[n,k,m]`.
  The degree-2 polynomial kernel adds the offset `1.0` to every entry and squares it, the square
  written as the product `(g + 1) · (g + 1)` (both programs multiply the sum by itself).

  Everything lives on the extended reals. The only facts used are that a finite sum is determined by
  its terms and that the offset is the same word on both sides; neither needs the inputs to be finite.
  The one structural fact proved here is LOCALITY IN THE SAMPLE: entry `(n, c, k)` reads sample `n`
  only, so the kernel of a run of consecutive samples, cut out of a longer array, is the same run cut
  out of the kernel of the longer array (`polyAt_congr`).
-/
import Idealize.ShloMosaic.Lib.ValueIdx
import Idealize.ShloMosaic.PureOps.Ideal.Laws

noncomputable section

namespace Cert.GramSpec

open Idealize.ShloMosaic Idealize.ShloMosaic.ValueIdx

/-- The offset `1.0` of the polynomial kernel: the f32 word both programs print. It is never
    evaluated, only matched against itself. -/
abbrev shift : EReal := Ideal.ofBits .f32 0x3F800000#32

/-- Entry `(c, k)` of sample `n`'s Gram matrix: the inner product of the sample's rows `c` and `k`. -/
def gram {N C M : Nat} (x : (⟨3, ![N, C, M]⟩ : Shape).Idx → EReal) (n : Fin N) (c k : Fin C) : EReal :=
  ∑ m : Fin M, x (ix3 n c m) * x (ix3 n k m)

/-- The polynomial kernel of one Gram entry: `(g + 1)²`, the square spelt as a product. -/
def polyAt {N C M : Nat} (x : (⟨3, ![N, C, M]⟩ : Shape).Idx → EReal) (n : Fin N) (c k : Fin C) : EReal :=
  (gram x n c k + shift) * (gram x n c k + shift)

/-- The whole result array: the polynomial kernel of every sample's Gram matrix. -/
def poly {N C M : Nat} (x : (⟨3, ![N, C, M]⟩ : Shape).Idx → EReal) : (⟨3, ![N, C, C]⟩ : Shape).Idx → EReal :=
  fun j => polyAt x (j 0) (j 1) (j 2)

theorem poly_ix3 {N C M : Nat} (x : (⟨3, ![N, C, M]⟩ : Shape).Idx → EReal) (n : Fin N) (c k : Fin C) :
    poly x (ix3 n c k) = polyAt x n c k := rfl

/-- LOCALITY IN THE SAMPLE. If sample `n'` of `v` is sample `n` of `x` (row by row, feature by
    feature), the two arrays have the same polynomial-kernel entries there. -/
theorem polyAt_congr {N N' C M : Nat} (v : (⟨3, ![N', C, M]⟩ : Shape).Idx → EReal)
    (x : (⟨3, ![N, C, M]⟩ : Shape).Idx → EReal) (n' : Fin N') (n : Fin N) (c k : Fin C)
    (h : ∀ (r : Fin C) (m : Fin M), v (ix3 n' r m) = x (ix3 n r m)) :
    polyAt v n' c k = polyAt x n c k := by
  have hg : gram v n' c k = gram x n c k :=
    Finset.sum_congr rfl fun m _ => by rw [h c m, h k m]
  unfold polyAt
  rw [hg]

/-- The same at whole indices: if index `z` of the longer array's result sits at the same row and
    column as index `y` of the shorter one's, and sample `y 0` of `v` is sample `z 0` of `x`, the two
    results agree there. This is how a block of consecutive samples is read inside the full array. -/
theorem poly_eq_of_sample {N N' C M : Nat} (v : (⟨3, ![N', C, M]⟩ : Shape).Idx → EReal)
    (x : (⟨3, ![N, C, M]⟩ : Shape).Idx → EReal) (y : (⟨3, ![N', C, C]⟩ : Shape).Idx) (z : (⟨3, ![N, C, C]⟩ : Shape).Idx)
    (h1 : (z 1).val = (y 1).val) (h2 : (z 2).val = (y 2).val)
    (h : ∀ (r : Fin C) (m : Fin M), v (ix3 (y 0) r m) = x (ix3 (z 0) r m)) :
    poly v y = poly x z := by
  have e1 : (z 1 : Fin C) = y 1 := Fin.ext h1
  have e2 : (z 2 : Fin C) = y 2 := Fin.ext h2
  show polyAt v (y 0) (y 1) (y 2) = polyAt x (z 0) (z 1) (z 2)
  rw [e1, e2]
  exact polyAt_congr v x (y 0) (z 0) (y 1) (y 2) h

end Cert.GramSpec

end
-- ==== Proof.ChunkPayload.lean ====
/-
  One chunk of the kernel body, read at an index.

  The body's arithmetic on a chunk `v` of 16 samples (each 128 × 512) is: round to bf16 (the
  identity on the extended reals), contract the feature axis of the chunk against itself sample by
  sample into a zero accumulator, add `1.0`, multiply the result by itself. Read at entry
  `(n, c, k)` this is `(∑ m, v[n,c,m] · v[n,k,m] + 1) · (the same)`: the polynomial kernel of the
  chunk. The matrix product into the zero accumulator is the bare sum over the contraction index
  (`0 + s = s`), and the contraction index, a one-axis index, is re-indexed by its coordinate.
-/
import proofs.«178772_j81140522156463_2_alg».proof.Proof.Gen.KernelIdeal.Skeleton
import proofs.«178772_j81140522156463_2_alg».proof.Proof.GramSpec
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.TcCoe
open Idealize.ShloMosaic.ValueIdx Cert.GramSpec

/-- The chunk product's dimension numbers: batch axis 0, feature axis 2 contracted on both sides. -/
abbrev D := dot_S16x128x512_S16x128x512_S16x128x128_2_2_1_1_0_0

/-! ## Which operand entries an output entry reads -/

theorem lhs_0 (i : S16x128x128.Idx) (q : D.contr.Idx) : (D.lhsIdx i q 0).val = (i 0).val := by
  unfold DotDims.lhsIdx
  rw [dif_pos (show (0 : Fin S16x128x512.rank) ∈ D.lhsBatch by decide)]
  rfl
theorem lhs_1 (i : S16x128x128.Idx) (q : D.contr.Idx) : (D.lhsIdx i q 1).val = (i 1).val := by
  unfold DotDims.lhsIdx
  rw [dif_neg (show ¬(1 : Fin S16x128x512.rank) ∈ D.lhsBatch by decide),
    dif_pos (show (1 : Fin S16x128x512.rank) ∈ D.lhsNonContracting by decide)]
  rfl
theorem lhs_2 (i : S16x128x128.Idx) (q : D.contr.Idx) : (D.lhsIdx i q 2).val = (q ⟨0, by decide⟩).val :=
  D.lhsIdx_val_of_single rfl i q
theorem rhs_0 (i : S16x128x128.Idx) (q : D.contr.Idx) : (D.rhsIdx i q 0).val = (i 0).val := by
  unfold DotDims.rhsIdx
  rw [dif_pos (show (0 : Fin S16x128x512.rank) ∈ D.rhsBatch by decide)]
  rfl
theorem rhs_1 (i : S16x128x128.Idx) (q : D.contr.Idx) : (D.rhsIdx i q 1).val = (i 2).val := by
  unfold DotDims.rhsIdx
  rw [dif_neg (show ¬(1 : Fin S16x128x512.rank) ∈ D.rhsBatch by decide),
    dif_pos (show (1 : Fin S16x128x512.rank) ∈ D.rhsNonContracting by decide)]
  rfl
theorem rhs_2 (i : S16x128x128.Idx) (q : D.contr.Idx) : (D.rhsIdx i q 2).val = (q ⟨0, by decide⟩).val :=
  D.rhsIdx_val_of_single rfl i q

/-! ## The chunk product and the payload at an entry -/

/-- The chunk's product with itself into the zero accumulator, at entry `(n, c, k)`: the inner product
    of rows `c` and `k` of sample `n`. -/
theorem product_at (v : FVec Ideal S16x128x512 .bf16) (n : Fin 16) (c k : Fin 128) :
    matmul D none v v (constant S16x128x128 .f32 0x00000000#32) (ix3 n c k)
      = ∑ m : Fin 512, v (ix3 n c m) * v (ix3 n k m) := by
  simp only [matmul]
  rw [Ideal.matmul_constant_zero_apply, ← Equiv.sum_comp (contrEquiv1 D 512 rfl rfl).symm]
  refine Finset.sum_congr rfl fun m _ => ?_
  have hm := contrEquiv1_symm_val D 512 rfl rfl m
  have el : D.lhsIdx (ix3 n c k) ((contrEquiv1 D 512 rfl rfl).symm m) = ix3 n c m := funext fun a => Fin.ext (by
    match a with
    | ⟨0, _⟩ => exact lhs_0 _ _
    | ⟨1, _⟩ => exact lhs_1 _ _
    | ⟨2, _⟩ => exact (lhs_2 _ _).trans hm)
  have er : D.rhsIdx (ix3 n c k) ((contrEquiv1 D 512 rfl rfl).symm m) = ix3 n k m := funext fun a => Fin.ext (by
    match a with
    | ⟨0, _⟩ => exact rhs_0 _ _
    | ⟨1, _⟩ => exact rhs_1 _ _
    | ⟨2, _⟩ => exact (rhs_2 _ _).trans hm)
  rw [el, er]

/-- THE PAYLOAD AT AN ENTRY: what the body stores for a chunk `v`, at `(n, c, k)`, is the chunk's
    polynomial kernel there. Rounding to bf16 does nothing on the extended reals, so the sum over the
    rounded chunk is the sum over the chunk. -/
theorem payload_at (v : Vec Ideal S16x128x512 .f32) (n : Fin 16) (c k : Fin 128) :
    k0_pay1 (F := Ideal) v (ix3 n c k) = polyAt v n c k := by
  have e := product_at (truncf .bf16 v bitsLt_bf16_f32) n c k
  exact congrArg (fun g : EReal => (g + shift) * (g + shift)) e

end Cert.KernelIdeal.Chunk

end
-- ==== Proof.BlockValue.lean ====
/-
  What the kernel body leaves in the output block.

  At a grid point the body holds a block `x` of 32 samples and runs two trips; trip `k` loads samples
  `16k … 16k+15` of the block, computes the chunk's polynomial kernel, and stores it over rows
  `16k … 16k+15` of the output block. So each stored piece is the restriction, to its 16 rows, of ONE
  function of the block index: the polynomial kernel `poly x` of the whole block — entry `(n, c, k)`
  reads sample `n` only, and sample `n` of chunk `k` is sample `16k + n` of the block. The two pieces
  cover the block, hence the block ends holding `poly x`.
-/
import proofs.«178772_j81140522156463_2_alg».proof.Proof.Gen.KernelIdeal.Frame
import proofs.«178772_j81140522156463_2_alg».proof.Proof.ChunkPayload
import Idealize.ShloMosaic.Lib.Pipeline.Value

noncomputable section

namespace Cert.KernelIdeal.Block

open Cert.KernelIdeal Cert.KernelIdeal.Gen Idealize.ShloMosaic Idealize.ShloMosaic.TcCoe Idealize.SL.Sem
open Idealize.ShloMosaic.ValueIdx Cert.GramSpec

/-! ## The pieces the run stores -/

/-- ONE TRIP STORES ONE PIECE: over the 16 rows at the trip's offset, the payload of the 16 samples
    loaded at the trip's offset. -/
theorem trip_piece {F : FTy → Type} [FloatOps F] (c : Dev nD) (i : grid0.Coords)
    (a1 : Memref sig .tc .vmem S32x128x512 .f32) (h1 : a1.IsWhole) (a2 : Memref sig .tc .vmem S32x128x128 .f32) (h2 : a2.IsWhole)
    (X : BufTy.Contents (Elt F) a1.view.ty) (k : Fin k0_t1_loop.trips) :
    tripL_k0_t1 (F := F) Variants.none c none i a1 h1 a2 h2 X k
      = [⟨Rect.unit (s := S32x128x128) (k0_off2 k) S16x128x128.size (k0_off2_inb k),
          k0_pay1 (View.readAt (Elt F) a1.view (Rect.unit (s := S32x128x512) (k0_off1 k) S16x128x512.size (k0_off1_inb k)).toLoadRect X)⟩] := by
  unfold tripL_k0_t1 trip_k0_t1
  rfl

/-- The whole body's pieces are the pieces of all the trips. -/
theorem run_pieces {F : FTy → Type} [FloatOps F] (c : Dev nD) (i : grid0.Coords)
    (a1 : Memref sig .tc .vmem S32x128x512 .f32) (h1 : a1.IsWhole) (a2 : Memref sig .tc .vmem S32x128x128 .f32) (h2 : a2.IsWhole)
    (x : Vec F S32x128x512 .f32) :
    (kernelRun0_A c i a1 h1 a2 h2 x).1
      = pb_k0_t1 (F := F) Variants.none c none i a1 h1 a2 h2 (h1.unread x) k0_t1_loop.trips := by
  unfold kernelRun0_A
  rfl

/-! ## Each piece is a restriction of the block's polynomial kernel -/

/-- Chunk `k`'s payload at a chunk index is the BLOCK's polynomial kernel at the block index the
    store puts it at: both rectangles start `16k` samples down and at zero on the other axes. -/
theorem chunk_restricts (x : Vec Ideal S32x128x512 .f32) (k : Fin k0_t1_loop.trips) (y : S16x128x128.Idx) :
    k0_pay1 (F := Ideal) (View.ld x (Rect.unit (s := S32x128x512) (k0_off1 k) S16x128x512.size (k0_off1_inb k))) y
      = poly x ((Rect.unit (s := S32x128x128) (k0_off2 k) S16x128x128.size (k0_off2_inb k)).emb y) := by
  have hk : k.val < 2 := Nat.lt_of_lt_of_le k.isLt k0_t1_abs.2.1
  obtain ⟨n, r, s, rfl⟩ : ∃ (n : Fin 16) (r s : Fin 128), y = ix3 n r s := ⟨y 0, y 1, y 2, eq_ix3 y⟩
  have hn : n.val < 16 := n.isLt
  have e2 : (Rect.unit (s := S32x128x128) (k0_off2 k) S16x128x128.size (k0_off2_inb k)).emb (ix3 n r s)
      = ix3 (⟨16 * k.val + n.val, by omega⟩ : Fin 32) r s := by
    funext a; apply Fin.ext
    rw [Rect.emb_apply]
    simp only [Rect.off_unit, Rect.stride_unit, k0_off2_eq]
    match a with
    | ⟨0, _⟩ => show 16 * k.val + 1 * n.val = 16 * k.val + n.val; omega
    | ⟨1, _⟩ => show 0 + 1 * r.val = r.val; omega
    | ⟨2, _⟩ => show 0 + 1 * s.val = s.val; omega
  rw [e2, poly_ix3]
  refine (Chunk.payload_at _ n r s).trans ?_
  refine polyAt_congr _ x n _ r s fun r' m => ?_
  show x ((Rect.unit (s := S32x128x512) (k0_off1 k) S16x128x512.size (k0_off1_inb k)).emb (ix3 n r' m)) = _
  refine congrArg x ?_
  funext a; apply Fin.ext
  rw [Rect.emb_apply]
  simp only [Rect.off_unit, Rect.stride_unit, k0_off1_eq]
  match a with
  | ⟨0, _⟩ => show 16 * k.val + 1 * n.val = 16 * k.val + n.val; omega
  | ⟨1, _⟩ => show 0 + 1 * r'.val = r'.val; omega
  | ⟨2, _⟩ => show 0 + 1 * m.val = m.val; omega

variable (c : Dev nD) (i : grid0.Coords)
  (a1 : Memref sig .tc .vmem S32x128x512 .f32) (h1 : a1.IsWhole) (a2 : Memref sig .tc .vmem S32x128x128 .f32) (h2 : a2.IsWhole)
  (x : Vec Ideal S32x128x512 .f32)

/-- The piece of trip `k` restricts `poly x`. -/
theorem trip_restricts (k : Fin k0_t1_loop.trips) :
    ∀ p ∈ tripL_k0_t1 (F := Ideal) Variants.none c none i a1 h1 a2 h2 (h1.unread x) k,
      ∀ y : p.1.shape.Idx, p.2 y = poly x (p.1.emb y) := by
  intro p hp
  rw [trip_piece, List.mem_singleton] at hp
  subst hp
  intro y
  show k0_pay1 (F := Ideal) (View.readAt (Elt Ideal) a1.view (Rect.unit (s := S32x128x512) (k0_off1 k) S16x128x512.size (k0_off1_inb k)).toLoadRect (h1.unread x)) y = _
  rw [View.readAt_eq_ld, h1.read_unread]
  exact chunk_restricts x k y

/-- So does every piece of the trips before `n`, by induction on `n`. -/
theorem pieces_restrict : ∀ (n : ℕ),
    ∀ p ∈ pb_k0_t1 (F := Ideal) Variants.none c none i a1 h1 a2 h2 (h1.unread x) n,
      ∀ y : p.1.shape.Idx, p.2 y = poly x (p.1.emb y)
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with h | h
      · exact trip_restricts c i a1 h1 a2 h2 x _ p h
      · exact pieces_restrict n p h
    · exact pieces_restrict n p hp

/-! ## The block the body leaves -/

/-- THE OUTPUT BLOCK after the body, for an input block `x`: the polynomial kernel of `x`. The pieces
    cover the block (the generated cover) and each restricts `poly x`. -/
theorem block_value : out0_A_1 (F := Ideal) c i a1 h1 a2 h2 x = poly x := by
  unfold out0_A_1
  rw [View.read_writes_eq_canon _ _ _ (cover0_A_1 c i a1 h1 a2 h2 x)]
  funext y
  refine View.canon_apply_of_pieces (poly x) _ (fun p hp => ?_) y (cover0_A_1 c i a1 h1 a2 h2 x y)
  rw [run_pieces] at hp
  exact pieces_restrict c i a1 h1 a2 h2 x _ p hp

end Cert.KernelIdeal.Block

end
-- ==== Proof.ArrayValue.lean ====
/-
  From blocks to the whole result array.

  The grid has 16 points; point `t` stages samples `32t … 32t+31` of the input as its input block and
  writes its output block back over samples `32t … 32t+31` of the result, the other two axes whole.
  What the body leaves for an input block `x` is `poly x` (the block's polynomial kernel), and entry
  `(n, c, k)` of a polynomial kernel reads sample `n` only; so what point `t` writes back is block `t`
  of the polynomial kernel of the WHOLE input. Sample `s` lies in the block of point `s / 32`, so the
  blocks cover the result, which therefore ends holding the polynomial kernel of the input.
-/
import proofs.«178772_j81140522156463_2_alg».proof.Proof.Gen.KernelIdeal.Value
import proofs.«178772_j81140522156463_2_alg».proof.Proof.BlockValue
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.GramSpec

variable (m : (ℓ : Loc nD τ sig) → Buf (Elt Ideal) ℓ) (ρ : Dev nD → PrngReg)

/-- The two index maps, decided over the 16 grid points: at point `t` both windows sit at block `t`
    of the sample axis and at block 0 of the other two. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the polynomial kernel of the input array. -/
theorem flushed_eq (c : Dev nD) (t : Fin cfg0.N) :
    (dats m 0 c).flushed 1 t
      = ((cfg0.win 1).blk t).view.read (Elt Ideal) (poly (N := 512) (C := 128) (M := 512) (V m c main_arg0)) := by
  rw [Value.flushed1_A, Block.block_value]
  obtain ⟨a0, a1, a2, b0, b1, b2⟩ := index_facts t
  funext y
  show poly (N := 32) (C := 128) (M := 512) (iblk m c 0 t) y
    = poly (N := 512) (C := 128) (M := 512) (V m c main_arg0) (((cfg0.win 1).blk t).view.emb y)
  refine poly_eq_of_sample _ _ y _ ?_ ?_ fun r mm => ?_
  · show win0_1.index t (1 : Fin 3) * 128 + 1 * (y 1).val = (y 1).val
    omega
  · show win0_1.index t (2 : Fin 3) * 128 + 1 * (y 2).val = (y 2).val
    omega
  · show V m c main_arg0 (((cfg0.win 0).blk t).view.emb (ix3 (y 0) r mm)) = V m c main_arg0 _
    refine congrArg (V m c main_arg0) ?_
    funext a; apply Fin.ext
    match a with
    | ⟨0, _⟩ =>
      show win0_0.index t (0 : Fin 3) * 32 + 1 * (y 0).val = win0_1.index t (0 : Fin 3) * 32 + 1 * (y 0).val
      omega
    | ⟨1, _⟩ => show win0_0.index t (1 : Fin 3) * 128 + 1 * r.val = r.val; omega
    | ⟨2, _⟩ => show win0_0.index t (2 : Fin 3) * 512 + 1 * mm.val = mm.val; omega

/-- An index of the result is in point `t`'s block iff each coordinate is in the block's range. -/
theorem mem_blk (t : Fin cfg0.N) (i : S512x128x128.Idx) :
    i ∈ ((cfg0.win 1).blk t).view.set ↔ ∀ a : Fin 3, win0_1.index t a * S32x128x128.size a ≤ (i a).val
      ∧ (i a).val < win0_1.index t a * S32x128x128.size a + S32x128x128.size a := by
  show i ∈ ((View.whole main_v0).slice (win0_1.rect t)).set ↔ _
  rw [View.set_slice_whole, Rect.mem_set_unit]
  exact Iff.rfl

/-- THE BLOCKS COVER THE RESULT: sample `s` is written back by point `s / 32`. -/
theorem cover (i : S512x128x128.Idx) :
    ∃ t : Fin cfg0.N, (cfg0.win 1).flush t = true ∧ i ∈ ((cfg0.win 1).blk t).view.set := by
  have hi0 : (i 0).val < 512 := (i 0).isLt
  have hi1 : (i 1).val < 128 := (i 1).isLt
  have hi2 : (i 2).val < 128 := (i 2).isLt
  have hN : cfg0.N = 16 := N_0
  obtain ⟨t, ht⟩ : ∃ t : Fin cfg0.N, t.val = (i 0).val / 32 := ⟨⟨(i 0).val / 32, by rw [hN]; omega⟩, rfl⟩
  obtain ⟨-, -, -, b0, b1, b2⟩ := index_facts t
  refine ⟨t, flush0_1 t, ?_⟩
  rw [mem_blk]
  intro a
  match a with
  | ⟨0, _⟩ =>
    show win0_1.index t (0 : Fin 3) * 32 ≤ (i 0).val ∧ (i 0).val < win0_1.index t (0 : Fin 3) * 32 + 32
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 128 ≤ (i 2).val ∧ (i 2).val < win0_1.index t (2 : Fin 3) * 128 + 128
    omega

/-- THE RESULT ARRAY after the run: the polynomial kernel of the input array as launched. -/
theorem final (c : Dev nD) :
    (dats m 0 c).arrAt 1 cfg0.N = poly (N := 512) (C := 128) (M := 512) (m ((c : Thread nD τ).loc main_arg0)) :=
  (dats m 0 c).arrAt_eq_of_cover 1 (poly (N := 512) (C := 128) (M := 512) (V m c main_arg0))
    (fun t _ => flushed_eq m c t) cover

/-- THE KERNEL'S RUN, READ: every weakly fair execution terminates with the result array at the
    polynomial kernel of the input and the input unchanged. -/
theorem run : θ_run defs (onTc (τ := τ) (main (F := Ideal))) ⟨m, fun _ => 0, ρ⟩ fun r => ∀ c : Dev nD,
      r.2.mem ((c : Thread nD τ).loc main_v0) = poly (N := 512) (C := 128) (M := 512) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.ReferenceValue.lean ====
/-
  The reference, read at an index.

  The reference contracts the feature axis of the input against itself sample by sample (one batched
  product over the whole array), adds `1.0` and multiplies the result by itself. Read at entry
  `(n, c, k)`, the product is `∑ m, x[n,c,m] · x[n,k,m]`: the left operand is read at `(n, c, m)`, the
  right at `(n, k, m)`. So the reference's result is the polynomial kernel `poly x` of the input.
-/
import proofs.«178772_j81140522156463_2_alg».proof.Proof.Gen.ReferenceIdeal.Read
import proofs.«178772_j81140522156463_2_alg».proof.Proof.GramSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.GramSpec

/-- THE REFERENCE IS THE POLYNOMIAL KERNEL of its input, index by index. -/
theorem reference_eq (x0 : (⟨S512x128x512, .f32⟩ : BufTy).Contents (Elt Ideal)) :
    val_main_v3 (F := Ideal) x0 = poly (N := 512) (C := 128) (M := 512) x0 := by
  funext i
  obtain ⟨n, c, k, rfl⟩ : ∃ (n : Fin 512) (c k : Fin 128), i = ix3 n c k := ⟨i 0, i 1, i 2, eq_ix3 i⟩
  have el : ∀ m : Fin 512, lidx_main_v0 (ix3 n c k) m = ix3 n c m := fun m => funext fun a => Fin.ext (by
    match a with
    | ⟨0, _⟩ => rfl
    | ⟨1, _⟩ => rfl
    | ⟨2, _⟩ => rfl)
  have er : ∀ m : Fin 512, ridx_main_v0 (ix3 n c k) m = ix3 n k m := fun m => funext fun a => Fin.ext (by
    match a with
    | ⟨0, _⟩ => rfl
    | ⟨1, _⟩ => rfl
    | ⟨2, _⟩ => rfl)
  rw [val_main_v3_apply, val_main_v2_apply, val_main_v0_apply, val_main_v1_apply, val_main_cst_apply]
  simp only [el, er]
  rfl

end Cert.ReferenceIdeal.RefValue

end
-- ==== Proof.lean ====
/-
  A batched Gram matrix with a degree-2 polynomial epilogue: the kernel against its reference, on the
  extended reals.

  For an input `x` of 512 samples, each a 128 × 512 matrix, both programs compute, for every sample
  `n` and every pair of rows `(c, k)`,

      (∑ m, x[n,c,m] · x[n,k,m]  +  1) · (∑ m, x[n,c,m] · x[n,k,m]  +  1).

  The reference does it with one batched product over the whole array, one addition and one
  multiplication. The kernel walks the samples 32 at a time over a grid of 16 points, and inside a
  point 16 at a time over a two-trip loop: each trip rounds its 16 samples to bf16 (the identity on
  the extended reals), contracts them against themselves into a zero accumulator (`0 + s = s`), adds
  the same `1.0` and multiplies the result by itself, and stores it over its 16 rows of the output
  block.

  The two agree because an entry `(n, c, k)` of the result reads sample `n` of the input and nothing
  else: cutting the samples into chunks, the chunks into blocks and the blocks into the array changes
  where an entry is computed, never what it is. No algebraic law beyond `0 + s = s` is used, so the
  finiteness of the input is never called on.

  - Proof/GramSpec.lean        the function `poly` and its locality in the sample
  - Proof/ChunkPayload.lean    the body's arithmetic on one chunk, at an entry
  - Proof/BlockValue.lean      the two trips' pieces restrict `poly` of the block and cover it
  - Proof/ArrayValue.lean      the 16 blocks restrict `poly` of the input and cover the result
  - Proof/ReferenceValue.lean  the reference's term is `poly` of the input

  The idealization rewrote nothing, so `preserves` has no conjunct.
-/
import proofs.«178772_j81140522156463_2_alg».proof.Defs
import proofs.«178772_j81140522156463_2_alg».proof.Proof.Gen.Kernel
import proofs.«178772_j81140522156463_2_alg».proof.Proof.Gen.Kernel.Frame
import proofs.«178772_j81140522156463_2_alg».proof.Proof.Gen.KernelIdeal
import proofs.«178772_j81140522156463_2_alg».proof.Proof.Gen.KernelIdeal.Frame
import proofs.«178772_j81140522156463_2_alg».proof.Proof.Gen.KernelIdeal.Value
import proofs.«178772_j81140522156463_2_alg».proof.Proof.Gen.ReferenceIdeal
import proofs.«178772_j81140522156463_2_alg».proof.Proof.Gen.ReferenceIdeal.Run
import proofs.«178772_j81140522156463_2_alg».proof.Proof.Gen.ReferenceIdeal.Read
import proofs.«178772_j81140522156463_2_alg».proof.Proof.Gen.Pre_finite_inputs
import proofs.«178772_j81140522156463_2_alg».proof.Proof.ArrayValue
import proofs.«178772_j81140522156463_2_alg».proof.Proof.ReferenceValue
import Idealize.ShloMosaic.Adequacy
import Idealize.ShloMosaic.Init

noncomputable section

namespace Cert.Proof

open Idealize.ShloMosaic Idealize.SL.Sem

/-- The word-level kernel runs and leaves its input as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its input as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From inputs that agree, both programs end with the polynomial kernel of the input: the kernel
    block by block (Proof/ArrayValue.lean), the reference in one term (Proof/ReferenceValue.lean). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
